-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x20 : Shape := ⟨2, ![2097152, 20]⟩
abbrev S2097152x8 : Shape := ⟨2, ![2097152, 8]⟩
abbrev S_ : Shape := ⟨0, ![]⟩

class Facts : Prop where
  bcast_S_S2097152x20 : S_.BroadcastsInDim S2097152x20 (![] : Fin 0 → Fin S2097152x20.rank)
  reducesTo_S2097152x20_S_d0_1 : S2097152x20.ReducesTo [0, 1] S_
  h_S_ : 0 < S_.numel
  bcast_S_S2097152x8 : S_.BroadcastsInDim S2097152x8 (![] : Fin 0 → Fin S2097152x8.rank)
  reducesTo_S2097152x8_S_d0_1 : S2097152x8.ReducesTo [0, 1] S_

variable [Facts]

def fn {F : FTy → Type} [FloatOps F] (main_arg0 : FVec F S2097152x20 .f32) (main_arg1 : FVec F S2097152x8 .f32) : IVec S_ 1 :=
  let main_v0 : FVec F S2097152x20 .f32 := Host.absf main_arg0
  let main_cst : FVec F S_ .f32 := constant S_ .f32 0x7F800000#32
  let main_v1 : FVec F S2097152x20 .f32 := broadcastInDim S2097152x20 ![] bcast_S_S2097152x20 main_cst
  let main_v2 : IVec S2097152x20 1 := cmpf .olt main_v0 main_v1
  let main_c : IVec S_ 1 := constantI S_ 1 1#1
  let main_v3 : IVec S_ 1 := (fun x v => Host.reduce IntOp.andi x v reducesTo_S2097152x20_S_d0_1 h_S_) main_v2 main_c
  let main_v4 : FVec F S2097152x8 .f32 := Host.absf main_arg1
  let main_cst_0 : FVec F S_ .f32 := constant S_ .f32 0x7F800000#32
  let main_v5 : FVec F S2097152x8 .f32 := broadcastInDim S2097152x8 ![] bcast_S_S2097152x8 main_cst_0
  let main_v6 : IVec S2097152x8 1 := cmpf .olt main_v4 main_v5
  let main_c_1 : IVec S_ 1 := constantI S_ 1 1#1
  let main_v7 : IVec S_ 1 := (fun x v => Host.reduce IntOp.andi x v reducesTo_S2097152x8_S_d0_1 h_S_) main_v6 main_c_1
  let main_v8 : IVec S_ 1 := andi main_v3 main_v7
  main_v8
-- ==== Kernel.lean ====
abbrev S2097152x20 : Shape := ⟨2, ![2097152, 20]⟩
abbrev S2097152x8 : Shape := ⟨2, ![2097152, 8]⟩
abbrev S8192x20 : Shape := ⟨2, ![8192, 20]⟩
abbrev S8192x8 : Shape := ⟨2, ![8192, 8]⟩
abbrev S8192 : Shape := ⟨1, ![8192]⟩
abbrev S8192x1 : Shape := ⟨2, ![8192, 1]⟩

abbrev nBuf : Space → Nat
  | .hbm => 3
  | .vmem => 6
  | .smem => 0
  | _ => 0

abbrev bufTy : (tb : Table) → Fin (tcTables nBuf tb) → BufTy
  | .hbm, ⟨0, _⟩ => ⟨S2097152x20, .f32⟩
  | .hbm, ⟨1, _⟩ => ⟨S2097152x8, .f32⟩
  | .hbm, ⟨2, _⟩ => ⟨S2097152x20, .f32⟩
  | .local _ .vmem, ⟨0, _⟩ => ⟨S8192x20, .f32⟩
  | .local _ .vmem, ⟨1, _⟩ => ⟨S8192x20, .f32⟩
  | .local _ .vmem, ⟨2, _⟩ => ⟨S8192x8, .f32⟩
  | .local _ .vmem, ⟨3, _⟩ => ⟨S8192x8, .f32⟩
  | .local _ .vmem, ⟨4, _⟩ => ⟨S8192x20, .f32⟩
  | .local _ .vmem, ⟨5, _⟩ => ⟨S8192x20, .f32⟩
  | _, _ => ⟨S2097152x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8192x20_S8192x20_0_0 : ∀ a, (![0, 0] : Fin 2 → Nat) a + S8192x20.size a ≤ S8192x20.size a
  h_S8192x20 : 0 < S8192x20.numel
  inb_S8192x8_S8192x8_0_0 : ∀ a, (![0, 0] : Fin 2 → Nat) a + S8192x8.size a ≤ S8192x8.size a
  h_S8192x8 : 0 < S8192x8.numel
  reduces_S8192x20_S8192 : S8192x20.Reduces [1] S8192
  shapeCasts_S8192_S8192x1 : S8192.ShapeCasts S8192x1
  broadcasts_S8192x1_S8192x20 : S8192x1.Broadcasts S8192x20
  iota_S8192x20_d1_w32 : S8192x20.Iotas .tc 32 [1]
  slices_S8192x20_o0_1_S8192x1 : S8192x20.Slices ![0, 1] S8192x1
  slices_S8192x20_o0_2_S8192x1 : S8192x20.Slices ![0, 2] S8192x1
  shapeCasts_S8192x1_S8192x1 : S8192x1.ShapeCasts S8192x1
  slices_S8192x20_o0_3_S8192x1 : S8192x20.Slices ![0, 3] S8192x1
  slices_S8192x20_o0_11_S8192x1 : S8192x20.Slices ![0, 11] S8192x1
  slices_S8192x20_o0_17_S8192x1 : S8192x20.Slices ![0, 17] S8192x1
  slices_S8192x20_o0_18_S8192x1 : S8192x20.Slices ![0, 18] S8192x1
  slices_S8192x8_o0_3_S8192x1 : S8192x8.Slices ![0, 3] S8192x1
  slices_S8192x8_o0_1_S8192x1 : S8192x8.Slices ![0, 1] S8192x1
  slices_S8192x8_o0_5_S8192x1 : S8192x8.Slices ![0, 5] S8192x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x20.size a ≤ S2097152x20.size a
  hwx0_0 : ∀ i : grid0.Coords, EltTy.bits .f32 = 32 ∨ (Rect.block (s := S2097152x20) S8192x20.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x8.size a ≤ S2097152x8.size a
  hwx0_1 : ∀ i : grid0.Coords, EltTy.bits .f32 = 32 ∨ (Rect.block (s := S2097152x8) S8192x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x20.size a ≤ S2097152x20.size a
  hwx0_2 : ∀ i : grid0.Coords, EltTy.bits .f32 = 32 ∨ (Rect.block (s := S2097152x20) S8192x20.size (cc0_transform_2 i) (hinb0_2 i)).WholeWords (EltTy.packing .f32)

variable [Facts₀]

abbrev win0_0 : Pipeline.Window sig grid0 :=
  Pipeline.Window.ofSpec (Memref.whole main_arg0) S8192x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x20.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2097152x20 : Shape := ⟨2, ![2097152, 20]⟩
abbrev S2097152x8 : Shape := ⟨2, ![2097152, 8]⟩
abbrev S_ : Shape := ⟨0, ![]⟩
abbrev S2097152 : Shape := ⟨1, ![2097152]⟩
abbrev S2097152x1 : Shape := ⟨2, ![2097152, 1]⟩
abbrev S1 : Shape := ⟨1, ![1]⟩

abbrev nBuf : Space → Nat
  | .hbm => 142
  | .vmem => 0
  | .smem => 0
  | _ => 0

abbrev hbmTy0_0 (i : Nat) : BufTy := match i % 128 with
  | 0 => ⟨S2097152x20, .f32⟩
  | 1 => ⟨S2097152x8, .f32⟩
  | 2 => ⟨S_, .f32⟩
  | 3 => ⟨S2097152, .f32⟩
  | 4 => ⟨S_, .f32⟩
  | 5 => ⟨S2097152, .f32⟩
  | 6 => ⟨S2097152, .f32⟩
  | 7 => ⟨S2097152x1, .f32⟩
  | 8 => ⟨S2097152x20, .f32⟩
  | 9 => ⟨S2097152x20, .f32⟩
  | 10 => ⟨S2097152x20, .f32⟩
  | 11 => ⟨S_, .f32⟩
  | 12 => ⟨S2097152, .f32⟩
  | 13 => ⟨S2097152x1, .f32⟩
  | 14 => ⟨S2097152x20, .f32⟩
  | 15 => ⟨S2097152x20, .f32⟩
  | 16 => ⟨S2097152x1, .f32⟩
  | 17 => ⟨S2097152, .f32⟩
  | 18 => ⟨S2097152x1, .f32⟩
  | 19 => ⟨S2097152, .f32⟩
  | 20 => ⟨S2097152, .f32⟩
  | 21 => ⟨S_, .f32⟩
  | 22 => ⟨S2097152, .f32⟩
  | 23 => ⟨S2097152, .i1⟩
  | 24 => ⟨S_, .f32⟩
  | 25 => ⟨S_, .f32⟩
  | 26 => ⟨S2097152, .f32⟩
  | 27 => ⟨S2097152, .f32⟩
  | 28 => ⟨S2097152, .f32⟩
  | 29 => ⟨S2097152, .f32⟩
  | 30 => ⟨S_, .i32⟩
  | 31 => ⟨S1, .i32⟩
  | 32 => ⟨S2097152x20, .f32⟩
  | 33 => ⟨S2097152, .f32⟩
  | 34 => ⟨S_, .i32⟩
  | 35 => ⟨S1, .i32⟩
  | 36 => ⟨S2097152x20, .f32⟩
  | 37 => ⟨S2097152x1, .f32⟩
  | 38 => ⟨S2097152, .f32⟩
  | 39 => ⟨S2097152x1, .f32⟩
  | 40 => ⟨S2097152, .f32⟩
  | 41 => ⟨S2097152, .f32⟩
  | 42 => ⟨S_, .f32⟩
  | 43 => ⟨S2097152, .f32⟩
  | 44 => ⟨S2097152, .i1⟩
  | 45 => ⟨S_, .f32⟩
  | 46 => ⟨S_, .f32⟩
  | 47 => ⟨S2097152, .f32⟩
  | 48 => ⟨S2097152, .f32⟩
  | 49 => ⟨S2097152, .f32⟩
  | 50 => ⟨S2097152, .f32⟩
  | 51 => ⟨S_, .i32⟩
  | 52 => ⟨S1, .i32⟩
  | 53 => ⟨S2097152x20, .f32⟩
  | 54 => ⟨S2097152, .f32⟩
  | 55 => ⟨S_, .i32⟩
  | 56 => ⟨S1, .i32⟩
  | 57 => ⟨S2097152x20, .f32⟩
  | 58 => ⟨S2097152x1, .f32⟩
  | 59 => ⟨S2097152, .f32⟩
  | 60 => ⟨S2097152x1, .f32⟩
  | 61 => ⟨S2097152, .f32⟩
  | 62 => ⟨S2097152, .f32⟩
  | 63 => ⟨S_, .f32⟩
  | 64 => ⟨S2097152, .f32⟩
  | 65 => ⟨S2097152, .i1⟩
  | 66 => ⟨S_, .f32⟩
  | 67 => ⟨S_, .f32⟩
  | 68 => ⟨S2097152, .f32⟩
  | 69 => ⟨S2097152, .f32⟩
  | 70 => ⟨S2097152, .f32⟩
  | 71 => ⟨S2097152, .f32⟩
  | 72 => ⟨S_, .i32⟩
  | 73 => ⟨S1, .i32⟩
  | 74 => ⟨S2097152x20, .f32⟩
  | 75 => ⟨S2097152, .f32⟩
  | 76 => ⟨S_, .i32⟩
  | 77 => ⟨S1, .i32⟩
  | 78 => ⟨S2097152x20, .f32⟩
  | 79 => ⟨S2097152x1, .f32⟩
  | 80 => ⟨S2097152, .f32⟩
  | 81 => ⟨S2097152x1, .f32⟩
  | 82 => ⟨S2097152, .f32⟩
  | 83 => ⟨S2097152x1, .f32⟩
  | 84 => ⟨S2097152, .f32⟩
  | 85 => ⟨S_, .f32⟩
  | 86 => ⟨S2097152, .f32⟩
  | 87 => ⟨S2097152, .i1⟩
  | 88 => ⟨S_, .f32⟩
  | 89 => ⟨S_, .f32⟩
  | 90 => ⟨S_, .f32⟩
  | 91 => ⟨S2097152, .f32⟩
  | 92 => ⟨S2097152, .f32⟩
  | 93 => ⟨S2097152, .f32⟩
  | 94 => ⟨S_, .i32⟩
  | 95 => ⟨S1, .i32⟩
  | 96 => ⟨S2097152x20, .f32⟩
  | 97 => ⟨S_, .f32⟩
  | 98 => ⟨S_, .f32⟩
  | 99 => ⟨S_, .f32⟩
  | 100 => ⟨S2097152, .f32⟩
  | 101 => ⟨S2097152, .f32⟩
  | 102 => ⟨S2097152, .f32⟩
  | 103 => ⟨S_, .i32⟩
  | 104 => ⟨S1, .i32⟩
  | 105 => ⟨S2097152x20, .f32⟩
  | 106 => ⟨S_, .f32⟩
  | 107 => ⟨S2097152, .f32⟩
  | 108 => ⟨S2097152, .i1⟩
  | 109 => ⟨S_, .f32⟩
  | 110 => ⟨S_, .f32⟩
  | 111 => ⟨S_, .f32⟩
  | 112 => ⟨S2097152, .f32⟩
  | 113 => ⟨S2097152, .f32⟩
  | 114 => ⟨S2097152, .f32⟩
  | 115 => ⟨S_, .i32⟩
  | 116 => ⟨S1, .i32⟩
  | 117 => ⟨S2097152x20, .f32⟩
  | 118 => ⟨S_, .f32⟩
  | 119 => ⟨S2097152, .f32⟩
  | 120 => ⟨S2097152, .i1⟩
  | 121 => ⟨S_, .f32⟩
  | 122 => ⟨S_, .f32⟩
  | 123 => ⟨S_, .f32⟩
  | 124 => ⟨S2097152, .f32⟩
  | 125 => ⟨S2097152, .f32⟩
  | 126 => ⟨S2097152, .f32⟩
  | 127 => ⟨S_, .i32⟩
  | _ => ⟨S2097152x20, .f32⟩

abbrev hbmTy0_1 (i : Nat) : BufTy := match i % 128 with
  | 0 => ⟨S1, .i32⟩
  | 1 => ⟨S2097152x20, .f32⟩
  | 2 => ⟨S_, .f32⟩
  | 3 => ⟨S2097152, .f32⟩
  | 4 => ⟨S2097152, .i1⟩
  | 5 => ⟨S_, .f32⟩
  | 6 => ⟨S_, .f32⟩
  | 7 => ⟨S_, .f32⟩
  | 8 => ⟨S2097152, .f32⟩
  | 9 => ⟨S2097152, .f32⟩
  | 10 => ⟨S2097152, .f32⟩
  | 11 => ⟨S_, .i32⟩
  | 12 => ⟨S1, .i32⟩
  | 13 => ⟨S2097152x20, .f32⟩
  | _ => ⟨S2097152x20, .f32⟩

abbrev hbmTy (i : Nat) : BufTy := match i / 128 with
  | 0 => hbmTy0_0 i
  | 1 => hbmTy0_1 i
  | _ => ⟨S2097152x20, .f32⟩

abbrev bufTy : (tb : Table) → Fin (tcTables nBuf tb) → BufTy
  | .hbm, ⟨i, _⟩ => hbmTy i
  | _, _ => ⟨S2097152x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_cst_8 : Ref sig .tc := ⟨.hbm, 46, rfl⟩
abbrev main_call1_v0 : Ref sig .tc := ⟨.hbm, 47, rfl⟩
abbrev main_call1_v1 : Ref sig .tc := ⟨.hbm, 48, rfl⟩
abbrev main_v32 : Ref sig .tc := ⟨.hbm, 49, rfl⟩
abbrev main_v33 : Ref sig .tc := ⟨.hbm, 50, rfl⟩
abbrev main_c_9 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_10 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_cst_12 : Ref sig .tc := ⟨.hbm, 66, rfl⟩
abbrev main_cst_13 : Ref sig .tc := ⟨.hbm, 67, rfl⟩
abbrev main_call2_v0 : Ref sig .tc := ⟨.hbm, 68, rfl⟩
abbrev main_call2_v1 : Ref sig .tc := ⟨.hbm, 69, rfl⟩
abbrev main_v46 : Ref sig .tc := ⟨.hbm, 70, rfl⟩
abbrev main_v47 : Ref sig .tc := ⟨.hbm, 71, rfl⟩
abbrev main_c_14 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_15 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_16 : Ref sig .tc := ⟨.hbm, 85, rfl⟩
abbrev main_v59 : Ref sig .tc := ⟨.hbm, 86, rfl⟩
abbrev main_v60 : Ref sig .tc := ⟨.hbm, 87, rfl⟩
abbrev main_cst_17 : Ref sig .tc := ⟨.hbm, 88, rfl⟩
abbrev main_cst_18 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v61 : Ref sig .tc := ⟨.hbm, 93, rfl⟩
abbrev main_c_19 : Ref sig .tc := ⟨.hbm, 94, rfl⟩
abbrev main_v62 : Ref sig .tc := ⟨.hbm, 95, rfl⟩
abbrev main_v63 : Ref sig .tc := ⟨.hbm, 96, rfl⟩
abbrev main_cst_20 : Ref sig .tc := ⟨.hbm, 97, rfl⟩
abbrev main_cst_21 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_v64 : Ref sig .tc := ⟨.hbm, 102, rfl⟩
abbrev main_c_22 : Ref sig .tc := ⟨.hbm, 103, rfl⟩
abbrev main_v65 : Ref sig .tc := ⟨.hbm, 104, rfl⟩
abbrev main_v66 : Ref sig .tc := ⟨.hbm, 105, rfl⟩
abbrev main_cst_23 : Ref sig .tc := ⟨.hbm, 106, rfl⟩
abbrev main_v67 : Ref sig .tc := ⟨.hbm, 107, rfl⟩
abbrev main_v68 : Ref sig .tc := ⟨.hbm, 108, rfl⟩
abbrev main_cst_24 : Ref sig .tc := ⟨.hbm, 109, rfl⟩
abbrev main_cst_25 : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_v69 : Ref sig .tc := ⟨.hbm, 114, rfl⟩
abbrev main_c_26 : Ref sig .tc := ⟨.hbm, 115, rfl⟩
abbrev main_v70 : Ref sig .tc := ⟨.hbm, 116, rfl⟩
abbrev main_v71 : Ref sig .tc := ⟨.hbm, 117, rfl⟩
abbrev main_cst_27 : Ref sig .tc := ⟨.hbm, 118, rfl⟩
abbrev main_v72 : Ref sig .tc := ⟨.hbm, 119, rfl⟩
abbrev main_v73 : Ref sig .tc := ⟨.hbm, 120, rfl⟩
abbrev main_cst_28 : Ref sig .tc := ⟨.hbm, 121, rfl⟩
abbrev main_cst_29 : Ref sig .tc := ⟨.hbm, 122, rfl⟩
abbrev main_call6_v0 : Ref sig .tc := ⟨.hbm, 123, rfl⟩
abbrev main_call6_v1 : Ref sig .tc := ⟨.hbm, 124, rfl⟩
abbrev main_call6_v2 : Ref sig .tc := ⟨.hbm, 125, rfl⟩
abbrev main_v74 : Ref sig .tc := ⟨.hbm, 126, rfl⟩
abbrev main_c_30 : Ref sig .tc := ⟨.hbm, 127, rfl⟩
abbrev main_v75 : Ref sig .tc := ⟨.hbm, 128, rfl⟩
abbrev main_v76 : Ref sig .tc := ⟨.hbm, 129, rfl⟩
abbrev main_cst_31 : Ref sig .tc := ⟨.hbm, 130, rfl⟩
abbrev main_v77 : Ref sig .tc := ⟨.hbm, 131, rfl⟩
abbrev main_v78 : Ref sig .tc := ⟨.hbm, 132, rfl⟩
abbrev main_cst_32 : Ref sig .tc := ⟨.hbm, 133, rfl⟩
abbrev main_cst_33 : Ref sig .tc := ⟨.hbm, 134, rfl⟩
abbrev main_call7_v0 : Ref sig .tc := ⟨.hbm, 135, rfl⟩
abbrev main_call7_v1 : Ref sig .tc := ⟨.hbm, 136, rfl⟩
abbrev main_call7_v2 : Ref sig .tc := ⟨.hbm, 137, rfl⟩
abbrev main_v79 : Ref sig .tc := ⟨.hbm, 138, rfl⟩
abbrev main_c_34 : Ref sig .tc := ⟨.hbm, 139, rfl⟩
abbrev main_v80 : Ref sig .tc := ⟨.hbm, 140, rfl⟩
abbrev main_v81 : Ref sig .tc := ⟨.hbm, 141, rfl⟩

abbrev nD : Nat := 1
abbrev τ : Topo := Topo.v7x

variable {F : FTy → Type} [FloatOps F]

class Facts₀ : Prop where
  reducesTo_S2097152x20_S2097152_d1 : S2097152x20.ReducesTo [1] S2097152
  h_S_ : 0 < S_.numel
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S2097152x1_S2097152x20_0_1 : S2097152x1.BroadcastsInDim S2097152x20 (![0, 1] : Fin 2 → Fin S2097152x20.rank)
  slices_S2097152x20_S2097152x1_0_1 : S2097152x20.Slices ![0, 1] S2097152x1
  shapeCasts_S2097152x1_S2097152 : S2097152x1.ShapeCasts S2097152
  slices_S2097152x20_S2097152x1_0_2 : S2097152x20.Slices ![0, 2] S2097152x1
  bcast_S_S1 : S_.BroadcastsInDim S1 (![] : Fin 0 → Fin S1.rank)
  slices_S2097152x20_S2097152x1_0_3 : S2097152x20.Slices ![0, 3] S2097152x1
  slices_S2097152x20_S2097152x1_0_11 : S2097152x20.Slices ![0, 11] S2097152x1
  slices_S2097152x20_S2097152x1_0_17 : S2097152x20.Slices ![0, 17] S2097152x1
  slices_S2097152x20_S2097152x1_0_18 : S2097152x20.Slices ![0, 18] S2097152x1
  slices_S2097152x8_S2097152x1_0_3 : S2097152x8.Slices ![0, 3] S2097152x1
  slices_S2097152x8_S2097152x1_0_1 : S2097152x8.Slices ![0, 1] S2097152x1
  slices_S2097152x8_S2097152x1_0_5 : S2097152x8.Slices ![0, 5] S2097152x1
  scatter_S2097152x20_S1_S2097152_0_1_1_0_wf : ScatterDims.WF S2097152x20 S1 S2097152 [0] [1] [1] 0

variable [Facts₀]

def scatter_S2097152x20_S1_S2097152_0_1_1_0 : ScatterDims S2097152x20 S1 S2097152 where
  updateWindowDims := [0]
  insertedWindowDims := [1]
  scatterDimsToOperandDims := [1]
  indexVectorDim := 0
  wf := scatter_S2097152x20_S1_S2097152_0_1_1_0_wf

class Facts : Prop extends Facts₀ where

variable [Facts]
-- ==== Proof.RowSpec.lean ====
import Idealize.ShloMosaic.PureOps.Ideal
import Idealize.ShloMosaic.PureOps.Ideal.Laws
import Idealize.ShloMosaic.Lib.ValueIdx

/-
  The row function both programs compute, on the extended reals.

  Every row of the result depends on the same row of the two arguments only.  For a row x of twenty entries of the
  first argument and a row s of eight entries of the second:

    m       = max (-inf) (max over k of x k)                       (the row maximum, from the word of -inf)
    e k     = exp (x k - m),   p k = e k / (sum over k' of e k')   (the softmax of the row)
    pen a b = 1.5 if p a * p b > 0.05 else 0                       (the term of a pair of columns)
    tA = 0.5 if s 3 < 85,  tB = -3 if s 3 > 160,  t2 = -5 if s 3 < 85,
    t4 = 0.3 if s 1 > 130, t5 = 0.5 if s 5 < 90                    (each 0 otherwise)

  and the result row is x with, added one column at a time in this order:
    -pen 1 2 on columns 1 and 2, -pen 3 11 on columns 3 and 11, -pen 17 18 on columns 17 and 18,
    t2 on column 2, tA then tB on column 1, t4 on column 4, t5 on column 5                         (rowOut).

  The other arrangement first gathers all the changes of a column into one number, starting from zero, subtracting
  the pair terms and adding the threshold terms (tA + tB as ONE term on column 1), and adds that number to x
  (gathered).  The two agree by associativity of + on the extended reals, 0 - a = -a, a - 0 = a and a + 0 = a; no
  finiteness is needed (gathered_eq).  The float words are kept as written: the same word denotes the same number
  on both sides; only the zero word is read as 0, and only in gathered_eq.
-/

noncomputable section

namespace Cert.RowSpec

open Idealize.ShloMosaic

/-- The row maximum as both programs take it: the fold of max from the word of -inf, then max with that word. -/
def rowMax (x : Fin 20 → EReal) : EReal :=
  max (Ideal.ofBits .f32 0xFF800000#32) ((Finset.univ : Finset (Fin 20)).fold max (Ideal.ofBits .f32 0xFF800000#32) x)

/-- The exponential of a row's entry less the row maximum. -/
def rowExp (x : Fin 20 → EReal) (k : Fin 20) : EReal := Ideal.exp (x k - rowMax x)

/-- The softmax of a row. -/
def prob (x : Fin 20 → EReal) (k : Fin 20) : EReal := Ideal.div (rowExp x k) (∑ k' : Fin 20, rowExp x k')

/-- The term of a pair of columns: 1.5 when the product of the two softmax entries exceeds 0.05 (both as float
    words), else 0. -/
def pen (x : Fin 20 → EReal) (a b : Fin 20) : EReal :=
  Scalar.select (Ideal.cmp .ogt (prob x a * prob x b) (Ideal.ofBits .f32 0x3D4CCCCD#32)) (Ideal.ofBits .f32 0x3FC00000#32)
    (Ideal.ofBits .f32 0x00000000#32)

/-- The threshold terms of a row of the second argument. -/
def tA (s : Fin 8 → EReal) : EReal :=
  Scalar.select (Ideal.cmp .olt (s 3) (Ideal.ofBits .f32 0x42AA0000#32)) (Ideal.ofBits .f32 0x3F000000#32)
    (Ideal.ofBits .f32 0x00000000#32)
def tB (s : Fin 8 → EReal) : EReal :=
  Scalar.select (Ideal.cmp .ogt (s 3) (Ideal.ofBits .f32 0x43200000#32)) (Ideal.ofBits .f32 0xC0400000#32)
    (Ideal.ofBits .f32 0x00000000#32)
def t2 (s : Fin 8 → EReal) : EReal :=
  Scalar.select (Ideal.cmp .olt (s 3) (Ideal.ofBits .f32 0x42AA0000#32)) (Ideal.ofBits .f32 0xC0A00000#32)
    (Ideal.ofBits .f32 0x00000000#32)
def t4 (s : Fin 8 → EReal) : EReal :=
  Scalar.select (Ideal.cmp .ogt (s 1) (Ideal.ofBits .f32 0x43020000#32)) (Ideal.ofBits .f32 0x3E99999A#32)
    (Ideal.ofBits .f32 0x00000000#32)
def t5 (s : Fin 8 → EReal) : EReal :=
  Scalar.select (Ideal.cmp .olt (s 5) (Ideal.ofBits .f32 0x42B40000#32)) (Ideal.ofBits .f32 0x3F000000#32)
    (Ideal.ofBits .f32 0x00000000#32)

/-- Adding u on column k only. -/
def bump (c k : Fin 20) (y u : EReal) : EReal := if c = k then y + u else y

/-- The value v on column k, the zero word elsewhere. -/
def only (c k : Fin 20) (v : EReal) : EReal := if c = k then v else Ideal.ofBits .f32 0x00000000#32

/-- The changes applied one column at a time. -/
def chain (c : Fin 20) (x p12 p311 p1718 a b u2 u4 u5 : EReal) : EReal :=
  bump c 5 (bump c 4 (bump c 1 (bump c 1 (bump c 2 (bump c 18 (bump c 17 (bump c 11 (bump c 3 (bump c 2 (bump c 1
    x (-p12)) (-p12)) (-p311)) (-p311)) (-p1718)) (-p1718)) u2) a) b) u4) u5

/-- The changes gathered per column from the zero word, then added. -/
def gathered (c : Fin 20) (x p12 p311 p1718 a b u2 u4 u5 : EReal) : EReal :=
  x + ((((((((((Ideal.ofBits .f32 0x00000000#32 - only c 1 p12) - only c 2 p12) - only c 3 p311) - only c 11 p311) - only c 17 p1718)
    - only c 18 p1718) + only c 1 (a + b)) + only c 2 u2) + only c 4 u4) + only c 5 u5)

/-- The two arrangements agree on every column, for all extended reals. -/
theorem gathered_eq (c : Fin 20) (x p12 p311 p1718 a b u2 u4 u5 : EReal) :
    gathered c x p12 p311 p1718 a b u2 u4 u5 = chain c x p12 p311 p1718 a b u2 u4 u5 := by
  unfold gathered chain bump only
  rw [Ideal.ofBits_zero_f32]
  fin_cases c <;> simp [sub_eq_add_neg, add_assoc]

/-- The result row. -/
def rowOut (x : Fin 20 → EReal) (s : Fin 8 → EReal) (c : Fin 20) : EReal :=
  chain c (x c) (pen x 1 2) (pen x 3 11) (pen x 17 18) (tA s) (tB s) (t2 s) (t4 s) (t5 s)

/-- Row r of an array of rows. -/
def rowOf {N M : ℕ} (X : (⟨2, ![N, M]⟩ : Shape).Idx → EReal) (r : Fin N) : Fin M → EReal := fun k => X (ValueIdx.ix2 r k)

/-- The whole-array function both programs compute: row r of the result is the row function of row r of the two
    arguments. -/
def G (X : (⟨2, ![2097152, 20]⟩ : Shape).Idx → EReal) (S : (⟨2, ![2097152, 8]⟩ : Shape).Idx → EReal) :
    (⟨2, ![2097152, 20]⟩ : Shape).Idx → EReal :=
  fun i => rowOut (rowOf X (i 0)) (rowOf S (i 0)) (i 1)

end Cert.RowSpec

end
-- ==== Proof.LibColumnLayouts.lean ====
import Idealize.ShloMosaic.Lib.Pipeline.Value
import Idealize.ShloMosaic.Lib.ValueIdx

/-
  Layout changes around a row-wise reduction, read at an index (for any element type and any extents):

  * slab_as_rows   — a [1, n, 1, w] slab read as an [n, w] matrix: entry (r, d) is the slab's (0, r, 0, d);
  * rows_as_slab   — an [n, w] matrix read as a [1, n, 1, w] slab;
  * vec_as_column  — a length-n vector read as an [n, 1] column (what keeping the reduced axis does to a row-wise
                     reduction's result);
  * column_spread  — an [n, 1] column spread over b columns: entry (r, t) is the column's (r, 0).
-/

namespace Cert.LibColumnLayouts

open Idealize.ShloMosaic Idealize.ShloMosaic.ValueIdx

variable {α : Type}

/-- A [1, n, 1, w] slab read as [n, w]: entry (r, d) is the slab's (0, r, 0, d). -/
theorem slab_as_rows {n w : ℕ} (x : (⟨4, ![1, n, 1, w]⟩ : Shape).Idx → α)
    (h : (⟨4, ![1, n, 1, w]⟩ : Shape).ShapeCasts ⟨2, ![n, w]⟩) (r : Fin n) (d : Fin w) :
    shapeCast ⟨2, ![n, w]⟩ x h (ix2 r d) = x (ix4 (0 : Fin 1) r (0 : Fin 1) d) :=
  shapeCast_apply x h _ _ (by
    rw [Shape.rowMajor_val_four, Shape.rowMajor_val_two]
    show ((0 * n + r.val) * 1 + 0) * w + d.val = r.val * w + d.val
    rw [Nat.zero_mul, Nat.zero_add, Nat.mul_one, Nat.add_zero])

/-- [n, w] rows read as a [1, n, 1, w] slab: entry (u, r, v, d) is the matrix's (r, d). -/
theorem rows_as_slab {n w : ℕ} (x : (⟨2, ![n, w]⟩ : Shape).Idx → α)
    (h : (⟨2, ![n, w]⟩ : Shape).ShapeCasts ⟨4, ![1, n, 1, w]⟩) (u : Fin 1) (r : Fin n) (v : Fin 1) (d : Fin w) :
    shapeCast ⟨4, ![1, n, 1, w]⟩ x h (ix4 u r v d) = x (ix2 r d) :=
  shapeCast_apply x h _ _ (by
    rw [Shape.rowMajor_val_four, Shape.rowMajor_val_two]
    show r.val * w + d.val = ((u.val * n + r.val) * 1 + v.val) * w + d.val
    have hu : u.val = 0 := by omega
    have hv : v.val = 0 := by omega
    rw [hu, hv, Nat.zero_mul, Nat.zero_add, Nat.mul_one, Nat.add_zero])

/-- A length-n vector read as an [n, 1] column: entry (r, u) is the vector's r. -/
theorem vec_as_column {n : ℕ} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    rw [Shape.rowMajor_val_two, Shape.rowMajor_val_one]
    show r.val = r.val * 1 + u.val
    have hu : u.val = 0 := by omega
    rw [hu, Nat.mul_one, Nat.add_zero])

/-- An [n, 1] column spread over b columns (n ≠ 1): entry (r, t) is the column's (r, 0). -/
theorem column_spread {n b : ℕ} (hb : b ≠ 1) (x : (⟨2, ![n, 1]⟩ : Shape).Idx → α) (h : (⟨2, ![n, 1]⟩ : Shape).Broadcasts ⟨2, ![n, b]⟩)
    (hn : n ≠ 1) (r : Fin n) (t : Fin b) : broadcastTo ⟨2, ![n, b]⟩ x h (ix2 r t) = x (ix2 r (0 : Fin 1)) := by
  refine broadcastTo_apply x h (ix2 r t) (ix2 r (0 : Fin 1)) fun a => ?_
  match a with
  | ⟨0, _⟩ =>
    show r.val = if n = 1 then 0 else r.val
    rw [if_neg hn]
  | ⟨1, _⟩ => rfl

end Cert.LibColumnLayouts
-- ==== Proof.LibColumnPick.lean ====
import Idealize.ShloMosaic.Lib.Pipeline.Value
import Idealize.ShloMosaic.Lib.ValueIdx

/-
  Picking a column, and a select on an integer equality, read at an index (any element type, any extents):

  * column_slice     — the unit-stride slice of an [n, m] array that keeps column k alone, an [n, 1] column:
                       entry (r, u) is the array's (r, k);
  * select_cmpi_eq   — a select on the bit of an integer equality is an if-then-else on the equality;
  * ofNat32_eq_iff   — two numbers below 2^32 have the same 32-bit word exactly when they are equal;
  * select_iota_eq   — so a select on "the column number's word equals the word of k" is an if-then-else on
                       the column being k.
-/

namespace Cert.LibColumnPick

open Idealize.ShloMosaic Idealize.ShloMosaic.ValueIdx

variable {α : Type}

/-- The slice of an [n, m] array keeping column k, read at (r, u): the array's (r, k). -/
theorem column_slice {n m : ℕ} (k : ℕ) (hk : k < m) (y : (⟨2, ![n, m]⟩ : Shape).Idx → α)
    (h : (⟨2, ![n, m]⟩ : Shape).Slices ![0, k] ⟨2, ![n, 1]⟩) (r : Fin n) (u : Fin 1) :
    extractStridedSlice ⟨2, ![n, 1]⟩ ![0, k] y h (ix2 r u) = y (ix2 r ⟨k, hk⟩) := by
  refine extractStridedSlice_apply ![0, k] y h (ix2 r u) (ix2 r ⟨k, hk⟩) fun a => ?_
  match a with
  | ⟨0, _⟩ => show r.val = 0 + r.val; rw [Nat.zero_add]
  | ⟨1, _⟩ =>
    show k = k + u.val
    have hu : u.val = 0 := by omega
    rw [hu, Nat.add_zero]

/-- A select on the bit of an integer equality. -/
theorem select_cmpi_eq {w : ℕ} (x y : BitVec w) (a b : α) :
    Scalar.select (IntOp.cmpi .eq x y) a b = if x = y then a else b := by
  have hc : IntOp.cmpi .eq x y = BitVec.ofBool (x == y) := rfl
  unfold Scalar.select
  rw [hc]
  by_cases h : x = y
  · subst h; simp
  · have hb : (x == y) = false := by simpa using h
    rw [hb, if_neg h]
    exact if_neg (by decide)

/-- Numbers below 2^32 have equal 32-bit words exactly when they are equal. -/
theorem ofNat32_eq_iff (a b : ℕ) (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · intro h; rw [h]

/-- A select on "the word of column q equals the word of k", for columns below 2^32: an if-then-else on q = k. -/
theorem select_iota_eq {m : ℕ} (hm : m ≤ 2 ^ 32) (q k : Fin m) (a b : α) :
    Scalar.select (IntOp.cmpi .eq (BitVec.ofNat 32 q.val) (BitVec.ofNat 32 k.val)) a b = if q = k then a else b := by
  rw [select_cmpi_eq]
  have e : (BitVec.ofNat 32 q.val = BitVec.ofNat 32 k.val) ↔ q = k :=
    (ofNat32_eq_iff q.val k.val (by have := q.isLt; omega) (by have := k.isLt; omega)).trans Fin.ext_iff.symm
  by_cases h : q = k
  · rw [if_pos h, if_pos (e.2 h)]
  · rw [if_neg h, if_neg (fun h' => h (e.1 h'))]

end Cert.LibColumnPick
-- ==== Proof.KernelBody.lean ====
import proofs.«142553_j47399259079459_2_alg».proof.Proof.Gen.KernelIdeal.Frame
import proofs.«142553_j47399259079459_2_alg».proof.Proof.RowSpec
import proofs.«142553_j47399259079459_2_alg».proof.Proof.LibColumnLayouts
import proofs.«142553_j47399259079459_2_alg».proof.Proof.LibColumnPick
import Idealize.ShloMosaic.PureOps.Ideal.Laws
import Idealize.ShloMosaic.Lib.Pipeline.Value
import Idealize.ShloMosaic.Lib.ValueIdx

/-
  The body of the kernel, read at an index of its output block.

  The body loads a block x of 8192 rows of twenty and a block s of 8192 rows of eight, and stores one block.  Read at
  (p, q) every operation of it is pointwise in the row p, except the two row reductions (the row maximum and the sum
  of the row's exponentials) and the layout steps around them (a vector of one entry per row made a column, a column
  spread over the twenty columns, a single column kept): each of those reads row p again.  So the stored block's
  entry (p, q) is a function of row p of x and row p of s alone: the softmax of the row, the three pair terms, the
  five threshold terms, gathered per column by selects on the column number and added to x.  That is the gathered
  arrangement of the row function, which equals the chained one (RowSpec.gathered_eq).
-/

noncomputable section

namespace Cert.KernelIdeal.Body

open Cert.KernelIdeal Cert.KernelIdeal.Gen Idealize.ShloMosaic Idealize.ShloMosaic.ValueIdx
open Cert.RowSpec Cert.LibColumnLayouts Cert.LibColumnPick

/-- Row p of a block of rows of twenty, and of eight. -/
def brow20 (x : S8192x20.Idx → EReal) (p : Fin 8192) : Fin 20 → EReal := fun k => x (ix2 p k)
def brow8 (s : S8192x8.Idx → EReal) (p : Fin 8192) : Fin 8 → EReal := fun k => s (ix2 p k)

/-- The reduced index p with the column k put back is (p, k). -/
theorem lift_eq (h : S8192x20.Reduces [1] S8192) (p : Fin 8192) (k : Fin 20) : h.lift (ix1 p) k = ix2 p k := by
  funext a
  match a with
  | ⟨0, _⟩ => rfl
  | ⟨1, _⟩ => rfl

/-- A row's maximum from the word of -inf: the fold of max over the row. -/
theorem rowmax_blk (x : S8192x20.Idx → EReal) (h : S8192x20.Reduces [1] S8192) (hφ : FKind.Formats .f32)
    (hacc : (0xFF800000#32 : BitVec 32) = 0xFF800000#32) (p : Fin 8192) :
    multiReduction (F := Ideal) .maximumf [1] S8192 x 0xFF800000#32 h hφ hacc (ix1 p)
      = (Finset.univ : Finset (Fin 20)).fold max (Ideal.ofBits .f32 0xFF800000#32) (brow20 x p) := by
  have h1 := Ideal.multiReduction_maximumf_single (φ := .f32) (s := S8192x20) (t := S8192) (a := 1) x 0xFF800000#32 h hφ hacc (ix1 p)
  have e : (x ∘ h.lift (ix1 p)) = brow20 x p := funext fun k => congrArg x (lift_eq h p k)
  rw [e] at h1
  exact h1

/-- A row's sum from the zero word. -/
theorem rowsum_blk (y : S8192x20.Idx → EReal) (h : S8192x20.Reduces [1] S8192) (hφ : FKind.Formats .f32)
    (hacc : (0x00000000#32 : BitVec 32) = 0x00000000#32) (p : Fin 8192) :
    multiReduction (F := Ideal) .add [1] S8192 y 0x00000000#32 h hφ hacc (ix1 p) = ∑ k : Fin 20, y (ix2 p k) := by
  refine (Ideal.multiReduction_add_single y 0x00000000#32 h hφ hacc (ix1 p)).trans ?_
  exact Finset.sum_congr rfl fun k _ => congrArg y (lift_eq h p k)

theorem exp_apply {s : Shape} (x : FVec Ideal s .f32) (i : s.Idx) : exp x i = Ideal.exp (x i) := rfl

/-- An [8192, 1] column spread over twenty columns. -/
theorem spread20 (y : S8192x1.Idx → EReal) (h : S8192x1.Broadcasts S8192x20) (r : Fin 8192) (t : Fin 20) :
    broadcastTo S8192x20 y h (ix2 r t) = y (ix2 r (0 : Fin 1)) :=
  column_spread (n := 8192) (b := 20) (by decide) y h (by decide) r t

/-- The softmax entry of the block's row. -/
theorem pay2_at (x : S8192x20.Idx → EReal) (p : Fin 8192) (k : Fin 20) :
    k0_pay2 (F := Ideal) x (ix2 p k) = prob (brow20 x p) k := by
  unfold k0_pay2
  try dsimp only
  have hm : maximumf (broadcast S8192 (FloatOps.ofBits (F := Ideal) FTy.f32 0xFF800000#32))
      (multiReduction (F := Ideal) .maximumf [1] S8192 x 0xFF800000#32 Gen.reduces_S8192x20_S8192 (.inl rfl) rfl) (ix1 p) = rowMax (brow20 x p) := by
    rw [maximumf_apply, broadcast_apply, rowmax_blk]
    rfl
  rw [divf_apply, exp_apply, subf_apply, spread20, spread20, vec_as_column, vec_as_column, hm, rowsum_blk]
  simp only [exp_apply, subf_apply, spread20, vec_as_column, hm]
  rfl

theorem cmpi_apply {s : Shape} {w : ℕ} (p : CmpIPredicate) (x y : IVec s w) (i : s.Idx) :
    cmpi p x y i = IntOp.cmpi p (x i) (y i) := rfl

/-- Column k of a block of rows of twenty, kept alone, at (r, u). -/
theorem col20 (k : ℕ) (hk : k < 20) (y : S8192x20.Idx → EReal) (h : S8192x20.Slices ![0, k] S8192x1) (r : Fin 8192) (u : Fin 1) :
    extractStridedSlice S8192x1 ![0, k] y h (ix2 r u) = y (ix2 r ⟨k, hk⟩) := column_slice k hk y h r u
/-- Column k of a block of rows of eight, kept alone, at (r, u). -/
theorem col8 (k : ℕ) (hk : k < 8) (y : S8192x8.Idx → EReal) (h : S8192x8.Slices ![0, k] S8192x1) (r : Fin 8192) (u : Fin 1) :
    extractStridedSlice S8192x1 ![0, k] y h (ix2 r u) = y (ix2 r ⟨k, hk⟩) := column_slice k hk y h r u

/-- The column number of (p, q), as a 32-bit word. -/
theorem iota_at (h : S8192x20.Iotas .tc 32 [1]) (p : Fin 8192) (q : Fin 20) :
    iota .tc S8192x20 32 [1] h (ix2 p q) = BitVec.ofNat 32 q.val :=
  iota_single_apply .tc S8192x20 32 1 h (ix2 p q)

/-- A select on the column number: v on column k, the zero word elsewhere. -/
def sel (j : BitVec 32) (k : BitVec 32) (v : EReal) : EReal :=
  Scalar.select (IntOp.cmpi .eq j k) v (Ideal.ofBits .f32 0x00000000#32)

theorem pay4_at (x : S8192x20.Idx → EReal) (p : Fin 8192) (u : Fin 1) :
    k0_pay4 (F := Ideal) x (ix2 p u)
      = Ideal.cmp .ogt (prob (brow20 x p) 3 * prob (brow20 x p) 11) (Ideal.ofBits .f32 0x3D4CCCCD#32) := by
  unfold k0_pay4
  try dsimp only
  rw [cmpf_apply, mulf_apply, broadcast_apply, col20 3 (by decide), col20 11 (by decide), pay2_at, pay2_at]
  rfl

theorem pay3_at (x : S8192x20.Idx → EReal) (p : Fin 8192) (q : Fin 20) :
    k0_pay3 (F := Ideal) x (ix2 p q)
      = (Ideal.ofBits .f32 0x00000000#32 - sel (BitVec.ofNat 32 q.val) 1#32 (pen (brow20 x p) 1 2))
          - sel (BitVec.ofNat 32 q.val) 2#32 (pen (brow20 x p) 1 2) := by
  unfold k0_pay3
  try dsimp only
  simp only [subf_apply, select_apply, cmpi_apply, broadcast_apply, spread20, shapeCast_self, cmpf_apply, mulf_apply,
    col20 1 (by decide), col20 2 (by decide), pay2_at]
  rw [iota_at]
  rfl

/-- The pair terms of columns 3, 11 and 17, 18 subtracted from what the first part gathered. -/
theorem pay5_at (v12 : S8192x20.Idx → EReal) (v13 : IVec S8192x20 32) (v36 : S8192x20.Idx → EReal) (v41 : IVec S8192x1 1)
    (c12 : EReal) (p : Fin 8192) (q : Fin 20) :
    k0_pay5 (F := Ideal) v12 v13 v36 v41 c12 (ix2 p q)
      = (((v36 (ix2 p q)
          - sel (v13 (ix2 p q)) 3#32 (Scalar.select (v41 (ix2 p (0 : Fin 1))) c12 (Ideal.ofBits .f32 0x00000000#32)))
          - sel (v13 (ix2 p q)) 11#32 (Scalar.select (v41 (ix2 p (0 : Fin 1))) c12 (Ideal.ofBits .f32 0x00000000#32)))
          - sel (v13 (ix2 p q)) 17#32 (Scalar.select (Ideal.cmp .ogt (v12 (ix2 p 17) * v12 (ix2 p 18)) (Ideal.ofBits .f32 0x3D4CCCCD#32))
              (Ideal.ofBits .f32 0x3FC00000#32) (Ideal.ofBits .f32 0x00000000#32)))
          - sel (v13 (ix2 p q)) 18#32 (Scalar.select (Ideal.cmp .ogt (v12 (ix2 p 17) * v12 (ix2 p 18)) (Ideal.ofBits .f32 0x3D4CCCCD#32))
              (Ideal.ofBits .f32 0x3FC00000#32) (Ideal.ofBits .f32 0x00000000#32)) := by
  unfold k0_pay5
  try dsimp only
  simp only [subf_apply, select_apply, cmpi_apply, broadcast_apply, spread20, shapeCast_self, cmpf_apply, mulf_apply,
    col20 17 (by decide), col20 18 (by decide)]
  rfl

theorem pay6_at (s : S8192x8.Idx → EReal) (p : Fin 8192) (u : Fin 1) : k0_pay6 (F := Ideal) s (ix2 p u) = s (ix2 p 3) := by
  unfold k0_pay6; exact col8 3 (by decide) s _ p u
theorem pay7_at (s : S8192x8.Idx → EReal) (p : Fin 8192) (u : Fin 1) : k0_pay7 (F := Ideal) s (ix2 p u) = s (ix2 p 1) := by
  unfold k0_pay7; exact col8 1 (by decide) s _ p u
theorem pay8_at (s : S8192x8.Idx → EReal) (p : Fin 8192) (u : Fin 1) : k0_pay8 (F := Ideal) s (ix2 p u) = s (ix2 p 5) := by
  unfold k0_pay8; exact col8 5 (by decide) s _ p u

theorem pay9_at (s : S8192x8.Idx → EReal) (p : Fin 8192) (u : Fin 1) :
    k0_pay9 (F := Ideal) s (ix2 p u) = Ideal.cmp .olt (s (ix2 p 3)) (Ideal.ofBits .f32 0x42AA0000#32) := by
  unfold k0_pay9
  try dsimp only
  rw [cmpf_apply, broadcast_apply, pay6_at]
  rfl

theorem pay10_at (p : Fin 8192) (u : Fin 1) : k0_pay10 (F := Ideal) (ix2 p u) = Ideal.ofBits .f32 0x3F000000#32 := rfl

theorem pay11_at (v83 : S8192x1.Idx → EReal) (p : Fin 8192) (u : Fin 1) :
    k0_pay11 (F := Ideal) v83 (ix2 p u)
      = Scalar.select (Ideal.cmp .olt (v83 (ix2 p u)) (Ideal.ofBits .f32 0x42B40000#32)) (Ideal.ofBits .f32 0x3F000000#32)
          (Ideal.ofBits .f32 0x00000000#32) := rfl

/-- The threshold terms of columns 1, 2 and 4 added to what the second part gathered. -/
theorem pay12_at (v13 : IVec S8192x20 32) (v80 : S8192x20.Idx → EReal) (v81 v82 : S8192x1.Idx → EReal) (v85 : IVec S8192x1 1)
    (c23 : EReal) (v86 : S8192x1.Idx → EReal) (p : Fin 8192) (q : Fin 20) :
    k0_pay12 (F := Ideal) v13 v80 v81 v82 v85 c23 v86 (ix2 p q)
      = ((v80 (ix2 p q)
          + sel (v13 (ix2 p q)) 1#32 (Scalar.select (v85 (ix2 p (0 : Fin 1))) (v86 (ix2 p (0 : Fin 1))) c23
              + Scalar.select (Ideal.cmp .ogt (v81 (ix2 p (0 : Fin 1))) (Ideal.ofBits .f32 0x43200000#32))
                  (Ideal.ofBits .f32 0xC0400000#32) (Ideal.ofBits .f32 0x00000000#32)))
          + sel (v13 (ix2 p q)) 2#32 (Scalar.select (v85 (ix2 p (0 : Fin 1))) (Ideal.ofBits .f32 0xC0A00000#32)
              (Ideal.ofBits .f32 0x00000000#32)))
          + sel (v13 (ix2 p q)) 4#32 (Scalar.select (Ideal.cmp .ogt (v82 (ix2 p (0 : Fin 1))) (Ideal.ofBits .f32 0x43020000#32))
              (Ideal.ofBits .f32 0x3E99999A#32) (Ideal.ofBits .f32 0x00000000#32)) := by
  unfold k0_pay12
  try dsimp only
  simp only [addf_apply, select_apply, cmpi_apply, broadcast_apply, spread20, shapeCast_self, cmpf_apply]
  rfl

/-- The last threshold term added, and the whole added to the loaded block. -/
theorem pay1_at (v0 : S8192x20.Idx → EReal) (v13 : IVec S8192x20 32) (v107 : S8192x1.Idx → EReal) (v128 : S8192x20.Idx → EReal)
    (c5 : BitVec 32) (p : Fin 8192) (q : Fin 20) :
    k0_pay1 (F := Ideal) v0 v13 v107 v128 c5 (ix2 p q)
      = v0 (ix2 p q) + (v128 (ix2 p q) + sel (v13 (ix2 p q)) c5 (v107 (ix2 p (0 : Fin 1)))) := by
  unfold k0_pay1
  try dsimp only
  simp only [addf_apply, select_apply, cmpi_apply, broadcast_apply, spread20, shapeCast_self]
  rfl

theorem hz : (![0, 0] : Fin 2 → Nat) = fun _ => 0 := funext fun a => by fin_cases a <;> rfl

/-- A select on "the column's word is the word of k" is the value on column k, the zero word elsewhere. -/
theorem sel_only (q : Fin 20) (k : ℕ) (hk : k < 20) (v : EReal) :
    sel (BitVec.ofNat 32 q.val) (BitVec.ofNat 32 k) v = only q ⟨k, hk⟩ v :=
  select_iota_eq (by decide) q ⟨k, hk⟩ v _

/-- THE BODY AT AN INDEX: entry (p, q) of the stored block is the row function of row p of the two loaded blocks. -/
theorem body_at (x : S8192x20.Idx → EReal) (s : S8192x8.Idx → EReal) (p : Fin 8192) (q : Fin 20) :
    out0_2 (F := Ideal) x s (ix2 p q) = rowOut (brow20 x p) (brow8 s p) q := by
  unfold out0_2
  rw [View.canon_unit_zero hz]
  simp only [View.ld_unit_zero (S := S8192x20) hz, View.ld_unit_zero (S := S8192x8) hz]
  simp only [pay1_at, pay12_at, pay5_at, pay3_at, pay11_at, pay8_at, pay6_at, pay7_at, pay9_at, pay10_at, pay4_at, pay2_at]
  rw [iota_at]
  simp only [sel_only q 1 (by decide), sel_only q 2 (by decide), sel_only q 3 (by decide), sel_only q 11 (by decide),
    sel_only q 17 (by decide), sel_only q 18 (by decide), sel_only q 4 (by decide), sel_only q 5 (by decide)]
  unfold rowOut
  rw [← gathered_eq]
  rfl

end Cert.KernelIdeal.Body

end
-- ==== Proof.KernelRows.lean ====
import proofs.«142553_j47399259079459_2_alg».proof.Proof.Gen.KernelIdeal.Value
import proofs.«142553_j47399259079459_2_alg».proof.Proof.KernelBody
import proofs.«142553_j47399259079459_2_alg».proof.Proof.RowSpec
import Idealize.ShloMosaic.Lib.Pipeline.Value
import Idealize.ShloMosaic.Lib.ValueIdx

/-
  From blocks to the array.

  Grid point t stages rows 8192 t … 8192 t + 8191 of both arguments and writes back the same rows of the result: on
  every window the block index is (t, 0), so a block's entry (p, k) is the array's entry (8192 t + p, k).  The body
  computes, row by row, the row function of the staged rows; so what point t writes back is block t of the
  whole-array function of the two arguments.  The 256 blocks tile the 2097152 rows (row r lies in block r / 8192),
  hence after the run the result array IS that function.
-/

set_option maxRecDepth 16384

noncomputable section

namespace Cert.KernelIdeal.RowValue

open Cert.KernelIdeal Cert.KernelIdeal.Gen Cert.KernelIdeal.Value Cert.KernelIdeal.Body
open Idealize.ShloMosaic Idealize.ShloMosaic.TcCoe Idealize.SL.Sem Idealize.ShloMosaic.ValueIdx
open Idealize.ShloMosaic.Pipeline (Dat)
open Cert.RowSpec

variable (m : (ℓ : Loc nD τ sig) → Buf (Elt Ideal) ℓ) (ρ : Dev nD → PrngReg)

/-- On each window the block index of point t is (t, 0): decided over the 256 points. -/
theorem blockIdx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem pt_lt (t : Fin cfg0.N) : t.val < 256 := t.isLt

/-- The array row that row p of block t is. -/
def arow (t : Fin cfg0.N) (p : Fin 8192) : Fin 2097152 := ⟨t.val * 8192 + p.val, by have := pt_lt t; have := p.isLt; omega⟩

/-- Entry (p, k) of block t of the first argument's window is the array's entry (8192 t + p, k); -/
theorem emb0 (t : Fin cfg0.N) (p : Fin 8192) (k : Fin 20) :
    ((cfg0.win 0).blk t).view.emb (ix2 p k) = (ix2 (arow t p) k : S2097152x20.Idx) := by
  obtain ⟨e0, e1, -, -, -, -⟩ := blockIdx t
  funext a; apply Fin.ext
  match a with
  | ⟨0, _⟩ => show win0_0.index t (0 : Fin 2) * 8192 + 1 * p.val = t.val * 8192 + p.val; rw [e0]; omega
  | ⟨1, _⟩ => show win0_0.index t (1 : Fin 2) * 20 + 1 * k.val = k.val; rw [e1]; omega

/-- likewise of the second argument's window; -/
theorem emb1 (t : Fin cfg0.N) (p : Fin 8192) (k : Fin 8) :
    ((cfg0.win 1).blk t).view.emb (ix2 p k) = (ix2 (arow t p) k : S2097152x8.Idx) := by
  obtain ⟨-, -, e0, e1, -, -⟩ := blockIdx t
  funext a; apply Fin.ext
  match a with
  | ⟨0, _⟩ => show win0_1.index t (0 : Fin 2) * 8192 + 1 * p.val = t.val * 8192 + p.val; rw [e0]; omega
  | ⟨1, _⟩ => show win0_1.index t (1 : Fin 2) * 8 + 1 * k.val = k.val; rw [e1]; omega

/-- and of the result's window. -/
theorem emb2 (t : Fin cfg0.N) (p : Fin 8192) (k : Fin 20) :
    ((cfg0.win 2).blk t).view.emb (ix2 p k) = (ix2 (arow t p) k : S2097152x20.Idx) := by
  obtain ⟨-, -, -, -, e0, e1⟩ := blockIdx t
  funext a; apply Fin.ext
  match a with
  | ⟨0, _⟩ => show win0_2.index t (0 : Fin 2) * 8192 + 1 * p.val = t.val * 8192 + p.val; rw [e0]; omega
  | ⟨1, _⟩ => show win0_2.index t (1 : Fin 2) * 20 + 1 * k.val = k.val; rw [e1]; omega

/-- WHAT POINT t WRITES BACK is block t of the whole-array function of the arguments as the region finds them. -/
theorem flushed_eq (c : Dev nD) (t : Fin cfg0.N) :
    (dats m 0 c).flushed 2 t = ((cfg0.win 2).blk t).view.read (Elt Ideal) (G (V m c main_arg0) (V m c main_arg1)) := by
  rw [flushed2]
  funext j
  obtain ⟨p, q, rfl⟩ : ∃ (p : Fin 8192) (q : Fin 20), j = ix2 p q := ⟨j 0, j 1, eq_ix2 j⟩
  show out0_2 (iblk m c 0 t) (iblk m c 1 t) (ix2 p q)
    = G (V m c main_arg0) (V m c main_arg1) (((cfg0.win 2).blk t).view.emb (ix2 p q))
  rw [emb2]
  refine (body_at (iblk m c 0 t) (iblk m c 1 t) p q).trans ?_
  show rowOut _ _ q = rowOut (rowOf (V m c main_arg0) (arow t p)) (rowOf (V m c main_arg1) (arow t p)) q
  have h0 : brow20 (iblk m c 0 t) p = rowOf (V m c main_arg0) (arow t p) := by
    funext k
    show V m c main_arg0 (((cfg0.win 0).blk t).view.emb (ix2 p k)) = V m c main_arg0 (ix2 (arow t p) k)
    rw [emb0]
  have h1 : brow8 (iblk m c 1 t) p = rowOf (V m c main_arg1) (arow t p) := by
    funext k
    show V m c main_arg1 (((cfg0.win 1).blk t).view.emb (ix2 p k)) = V m c main_arg1 (ix2 (arow t p) k)
    rw [emb1]
  rw [h0, h1]

/-- An index of the array is in point t's block iff each coordinate is in the block's range on its axis. -/
theorem mem_blk (t : Fin cfg0.N) (i : S2097152x20.Idx) :
    i ∈ ((cfg0.win 2).blk t).view.set ↔ ∀ a : Fin 2, win0_2.index t a * S8192x20.size a ≤ (i a).val
      ∧ (i a).val < win0_2.index t a * S8192x20.size a + S8192x20.size a := by
  show i ∈ ((View.whole main_v0).slice (win0_2.rect t)).set ↔ _
  rw [View.set_slice_whole, Rect.mem_set_unit]
  exact Iff.rfl

/-- Every index of the result lies in the block of the point its row divided by 8192 names. -/
theorem cover (i : S2097152x20.Idx) :
    ∃ t : Fin cfg0.N, (cfg0.win 2).flush t = true ∧ i ∈ ((cfg0.win 2).blk t).view.set := by
  have hi0 : (i 0).val < 2097152 := (i 0).isLt
  have hi1 : (i 1).val < 20 := (i 1).isLt
  let t : Fin cfg0.N := ⟨(i 0).val / 8192, by show (i 0).val / 8192 < 256; omega⟩
  have ht : t.val = (i 0).val / 8192 := rfl
  obtain ⟨-, -, -, -, e0, e1⟩ := blockIdx t
  refine ⟨t, flush0_2 t, ?_⟩
  rw [mem_blk]
  intro a
  match a with
  | ⟨0, _⟩ =>
    show win0_2.index t (0 : Fin 2) * 8192 ≤ (i 0).val ∧ (i 0).val < win0_2.index t (0 : Fin 2) * 8192 + 8192
    rw [e0, ht]; omega
  | ⟨1, _⟩ =>
    show win0_2.index t (1 : Fin 2) * 20 ≤ (i 1).val ∧ (i 1).val < win0_2.index t (1 : Fin 2) * 20 + 20
    rw [e1]; omega

/-- THE ARRAY after the run: the whole-array function of the two arguments. -/
theorem final (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) cover

/-- The run, read: the result array at the whole-array function of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.RowValue

end
-- ==== Proof.LibScatterColumn.lean ====
import Idealize.ShloMosaic.PureOps
import Idealize.ShloMosaic.Lib.ValueIdx

/-
  A host scatter read at one index.

  The host's scatter is a left fold, over the update indices in row-major order, of pointwise overwrites: update
  index j replaces the result's element at the operand index it lands on (when it lands inside the operand) by the
  body applied to that element and the update's.  Read at ONE operand index i the fold only sees the updates that
  land on i:

  * scatter_apply_of_none   — no update lands on i: the operand's element is unchanged;
  * scatter_apply_of_unique — exactly one update index j lands on i: the element is the body of the operand's
                              element and the update's element at j.

  Then the case of a whole column of an [n, m] array updated from a length-n vector at ONE column index
  (update window axis 0, inserted window axis 1, the one scatter index naming axis 1): update j lands on (j, col),
  so the result at (r, c) is the body of the operand's and the update's r-th element when c = col, and the
  operand's element otherwise (column_resultIdx, scatter_column_apply).
-/

namespace Cert.LibScatterColumn

open Idealize.ShloMosaic Idealize.ShloMosaic.ValueIdx

variable {α : Type}

section Fold

variable {s si u : Shape} {w : Nat} (d : ScatterDims s si u) (f : α → α → α) (idx : IVec si w) (upd : u.Idx → α)

/-- One step of the scatter's fold: update number n overwrites the element it lands on. -/
def step (r : s.Idx → α) (n : Fin u.numel) : s.Idx → α :=
  match d.resultIdx? (u.rowMajor.symm n) idx with
  | some i => fun i' => if i' = i then f (r i) (upd (u.rowMajor.symm n)) else r i'
  | none => r

theorem scatter_eq_foldl (x : s.Idx → α) :
    Host.scatter d f x idx upd = (List.finRange u.numel).foldl (step d f idx upd) x := rfl

/-- A step whose update does not land on i leaves the element at i alone. -/
theorem step_of_ne (r : s.Idx → α) (n : Fin u.numel) (i : s.Idx)
    (h : d.resultIdx? (u.rowMajor.symm n) idx ≠ some i) : step d f idx upd r n i = r i := by
  unfold step
  cases hres : d.resultIdx? (u.rowMajor.symm n) idx with
  | none => rfl
  | some i0 =>
    have hne : i ≠ i0 := fun e => h (by rw [hres, e])
    show (if i = i0 then _ else r i) = r i
    rw [if_neg hne]

/-- A step whose update lands on i replaces the element at i by the body of it and the update's element. -/
theorem step_of_eq (r : s.Idx → α) (n : Fin u.numel) (i : s.Idx)
    (h : d.resultIdx? (u.rowMajor.symm n) idx = some i) :
    step d f idx upd r n i = f (r i) (upd (u.rowMajor.symm n)) := by
  unfold step
  rw [h]
  show (if i = i then _ else r i) = _
  rw [if_pos rfl]

/-- A run of steps none of which lands on i leaves the element at i alone. -/
theorem foldl_of_none (L : List (Fin u.numel)) (r : s.Idx → α) (i : s.Idx)
    (h : ∀ n ∈ L, d.resultIdx? (u.rowMajor.symm n) idx ≠ some i) :
    L.foldl (step d f idx upd) r i = r i := by
  induction L generalizing r with
  | nil => rfl
  | cons n L ih =>
    rw [List.foldl_cons, ih _ (fun n' hn' => h n' (List.mem_cons_of_mem _ hn')),
      step_of_ne d f idx upd r n i (h n List.mem_cons_self)]

/-- A run of distinct steps exactly one of which (number n0) lands on i applies the body once, to the element the
    run started from and the update's element at n0. -/
theorem foldl_of_unique (L : List (Fin u.numel)) (hL : L.Nodup) (r : s.Idx → α) (i : s.Idx) (n0 : Fin u.numel)
    (hmem : n0 ∈ L) (h0 : d.resultIdx? (u.rowMajor.symm n0) idx = some i)
    (huniq : ∀ n ∈ L, d.resultIdx? (u.rowMajor.symm n) idx = some i → n = n0) :
    L.foldl (step d f idx upd) r i = f (r i) (upd (u.rowMajor.symm n0)) := by
  induction L generalizing r with
  | nil => exact absurd hmem List.not_mem_nil
  | cons n L ih =>
    rw [List.foldl_cons]
    have hnd := List.nodup_cons.1 hL
    by_cases hn : n = n0
    · subst hn
      rw [foldl_of_none d f idx upd L _ i (fun n' hn' e =>
        hnd.1 ((huniq n' (List.mem_cons_of_mem _ hn') e) ▸ hn')), step_of_eq d f idx upd r n i h0]
    · have hmem' : n0 ∈ L := (List.mem_cons.1 hmem).resolve_left (fun e => hn e.symm)
      rw [ih hnd.2 _ hmem' (fun n' hn' e => huniq n' (List.mem_cons_of_mem _ hn') e),
        step_of_ne d f idx upd r n i (fun e => hn (huniq n List.mem_cons_self e))]

/-- No update lands on i: the scatter leaves the operand's element. -/
theorem scatter_apply_of_none (x : s.Idx → α) (i : s.Idx) (h : ∀ j : u.Idx, d.resultIdx? j idx ≠ some i) :
    Host.scatter d f x idx upd i = x i := by
  rw [scatter_eq_foldl]
  exact foldl_of_none d f idx upd _ x i (fun n _ => h _)

/-- Exactly one update index j lands on i: the scatter's element there is the body of the operand's element and the
    update's element at j. -/
theorem scatter_apply_of_unique (x : s.Idx → α) (i : s.Idx) (j : u.Idx) (hj : d.resultIdx? j idx = some i)
    (huniq : ∀ j' : u.Idx, d.resultIdx? j' idx = some i → j' = j) :
    Host.scatter d f x idx upd i = f (x i) (upd j) := by
  rw [scatter_eq_foldl]
  have e : u.rowMajor.symm (u.rowMajor j) = j := u.rowMajor.symm_apply_apply j
  have := foldl_of_unique d f idx upd (List.finRange u.numel) (List.nodup_finRange _) x i (u.rowMajor j)
    (List.mem_finRange _) (by rw [e]; exact hj)
    (fun n _ hn => by
      have := huniq _ hn
      rw [← this]; exact (u.rowMajor.apply_symm_apply n).symm)
  rw [this, e]

end Fold

section Column

variable {n m w : Nat}

/-- The dimension numbers of a whole column of an [n, m] array updated from a length-n vector at one column
    index: update window axis 0, inserted window axis 1, the one scatter index naming operand axis 1. -/
abbrev columnDims (wf : ScatterDims.WF ⟨2, ![n, m]⟩ ⟨1, ![1]⟩ ⟨1, ![n]⟩ [0] [1] [1] 0) :
    ScatterDims ⟨2, ![n, m]⟩ ⟨1, ![1]⟩ ⟨1, ![n]⟩ := ⟨[0], [1], [1], 0, wf⟩

/-- Update j of a column scatter lands on (j, col), where col is the one scatter index read signed (and inside
    the row). -/
theorem column_resultIdx (wf : ScatterDims.WF ⟨2, ![n, m]⟩ ⟨1, ![1]⟩ ⟨1, ![n]⟩ [0] [1] [1] 0)
    (idx : IVec ⟨1, ![1]⟩ w) (col : Fin m) (hcol : (idx (ix1 (0 : Fin 1))).toInt = (col.val : Int))
    (j : (⟨1, ![n]⟩ : Shape).Idx) :
    (columnDims wf).resultIdx? j idx = some (ix2 (j 0) col) := by
  unfold ScatterDims.resultIdx?
  have hs : ∀ a : Fin 2, (columnDims wf).start j idx a + ((columnDims wf).window j a : Int)
      = ((ix2 (j 0) col a).val : Int) := by
    intro a
    match a with
    | ⟨0, _⟩ =>
      simp [ScatterDims.start, ScatterDims.window, ScatterDims.sKept, Shape.kept]
      rfl
    | ⟨1, _⟩ =>
      simp [ScatterDims.start, ScatterDims.window, ScatterDims.sKept, Shape.kept]
      have e : (columnDims wf).siIdx j 0 = ix1 (0 : Fin 1) := by
        funext b
        match b with
        | ⟨0, _⟩ => rfl
      rw [e, hcol]
  have hall : ∀ a : Fin 2, 0 ≤ (columnDims wf).start j idx a + ((columnDims wf).window j a : Int) ∧
      (columnDims wf).start j idx a + ((columnDims wf).window j a : Int) < ((⟨2, ![n, m]⟩ : Shape).size a : Int) := by
    intro a
    rw [hs a]
    exact ⟨Int.natCast_nonneg _, Int.ofNat_lt.2 (ix2 (j 0) col a).isLt⟩
  rw [dif_pos hall]
  congr 1
  funext a
  apply Fin.ext
  show (_ : Int).toNat = _
  rw [hs a]
  rfl

/-- A column scatter read at (r, c): in the scattered column the body of the operand's element and the update's
    r-th element, elsewhere the operand's element. -/
theorem scatter_column_apply (wf : ScatterDims.WF ⟨2, ![n, m]⟩ ⟨1, ![1]⟩ ⟨1, ![n]⟩ [0] [1] [1] 0) (f : α → α → α)
    (x : (⟨2, ![n, m]⟩ : Shape).Idx → α) (idx : IVec ⟨1, ![1]⟩ w) (upd : (⟨1, ![n]⟩ : Shape).Idx → α) (col : Fin m)
    (hcol : (idx (ix1 (0 : Fin 1))).toInt = (col.val : Int)) (r : Fin n) (c : Fin m) :
    Host.scatter (columnDims wf) f x idx upd (ix2 r c)
      = if c = col then f (x (ix2 r c)) (upd (ix1 r)) else x (ix2 r c) := by
  by_cases h : c = col
  · subst h
    rw [if_pos rfl]
    refine scatter_apply_of_unique (columnDims wf) f idx upd x (ix2 r c) (ix1 r)
      (column_resultIdx wf idx c hcol (ix1 r)) (fun j' hj' => ?_)
    rw [column_resultIdx wf idx c hcol j'] at hj'
    have e : j' 0 = r := congrArg (fun i : (⟨2, ![n, m]⟩ : Shape).Idx => i 0) (Option.some.inj hj')
    exact (eq_ix1 j').trans (congrArg (fun a : Fin n => (ix1 a : (⟨1, ![n]⟩ : Shape).Idx)) e)
  · rw [if_neg h]
    refine scatter_apply_of_none (columnDims wf) f idx upd x (ix2 r c) (fun j' hj' => h ?_)
    rw [column_resultIdx wf idx col hcol j'] at hj'
    exact (congrArg (fun i : (⟨2, ![n, m]⟩ : Shape).Idx => i 1) (Option.some.inj hj')).symm

end Column

end Cert.LibScatterColumn
-- ==== Proof.RefValue.lean ====
import proofs.«142553_j47399259079459_2_alg».proof.Proof.Gen.ReferenceIdeal.Read
import proofs.«142553_j47399259079459_2_alg».proof.Proof.RowSpec
import proofs.«142553_j47399259079459_2_alg».proof.Proof.LibScatterColumn
import Idealize.ShloMosaic.PureOps.Reduce
import Idealize.ShloMosaic.PureOps.Ideal.Laws
import Idealize.ShloMosaic.Lib.ValueIdx

/-
  The reference's result, read at an index, is the row function of the two arguments' rows.

  The reference takes the softmax of every row of the first argument (row maximum from the word of -inf, exponentials
  of the differences, their sum, the quotients), forms the three pair terms from columns of it, the five threshold
  terms from columns 3, 1 and 5 of the second argument, and adds them into the first argument one column at a time:
  eleven scatters, each of a whole column from a vector with one entry per row.  A column scatter read at (r, c) adds
  the vector's r-th entry when c is the scattered column and changes nothing otherwise, so the eleven in order are
  the chain of the row function.
-/

noncomputable section

namespace Cert.ReferenceIdeal.RefValue

open Cert.ReferenceIdeal Cert.ReferenceIdeal.Gen Cert.ReferenceIdeal.Read Idealize.ShloMosaic Idealize.ShloMosaic.ValueIdx
open Cert.RowSpec Cert.LibScatterColumn

/-- Row r of the first argument, and of the second. -/
abbrev row20 (X : S2097152x20.Idx → EReal) (r : Fin 2097152) : Fin 20 → EReal := rowOf X r
abbrev row8 (S : S2097152x8.Idx → EReal) (r : Fin 2097152) : Fin 8 → EReal := rowOf S r

theorem reduces20 : S2097152x20.Reduces [1] S2097152 := by decide

/-- The reduced index r with the column k put back is (r, k). -/
theorem lift_eq (r : Fin 2097152) (k : Fin 20) : reduces20.lift (ix1 r) k = ix2 r k := by
  funext a
  match a with
  | ⟨0, _⟩ => rfl
  | ⟨1, _⟩ => rfl

/-- The row maximum: a fold of max over the row's columns from the word of -inf, then max with that word. -/
theorem rowMax_ref (X : S2097152x20.Idx → EReal) (r : Fin 2097152) :
    val_main_v2 (F := Ideal) X (ix1 r) = rowMax (row20 X r) := by
  rw [val_main_v2_apply, val_main_v1_apply, val_main_cst_0_apply]
  unfold val_main_v0
  have hfold := Host.reduce_eq_fold_single (FloatOps.maximumf (F := Ideal) (φ := .f32)) X (val_main_cst (F := Ideal))
    reducesTo_S2097152x20_S2097152_d1 reduces20 h_S_ (ix1 r)
  rw [hfold]
  unfold rowMax
  have e : (X ∘ reduces20.lift (ix1 r)) = row20 X r := funext fun k => congrArg X (lift_eq r k)
  rw [e]
  rfl

/-- The exponential of an entry less its row's maximum. -/
theorem rowExp_ref (X : S2097152x20.Idx → EReal) (r : Fin 2097152) (k : Fin 20) :
    val_main_v6 (F := Ideal) X (ix2 r k) = rowExp (row20 X r) k := by
  rw [val_main_v6_apply, val_main_v5_apply, val_main_v4_apply, val_main_v3_apply]
  have e : idx_main_v3 (idx_main_v4 (ix2 r k)) = ix1 r := by
    funext a
    match a with
    | ⟨0, _⟩ => rfl
  rw [e, rowMax_ref]
  rfl

/-- The sum of a row's exponentials (from the zero word). -/
theorem rowSum_ref (X : S2097152x20.Idx → EReal) (r : Fin 2097152) :
    val_main_v7 (F := Ideal) X (ix1 r) = ∑ k : Fin 20, rowExp (row20 X r) k := by
  rw [val_main_v7_apply, val_main_cst_1_apply]
  have e : ∀ k : Fin 20, idx_main_v7 (ix1 r) k = ix2 r k := fun k => by
    funext a
    match a with
    | ⟨0, _⟩ => rfl
    | ⟨1, _⟩ => rfl
  simp only [e, rowExp_ref]
  show Ideal.ofBits .f32 0x00000000#32 + _ = _
  rw [Ideal.ofBits_zero_f32, zero_add]

/-- The softmax entry. -/
theorem prob_ref (X : S2097152x20.Idx → EReal) (r : Fin 2097152) (k : Fin 20) :
    val_main_v10 (F := Ideal) X (ix2 r k) = prob (row20 X r) k := by
  rw [val_main_v10_apply, val_main_v9_apply, val_main_v8_apply]
  have e : idx_main_v8 (idx_main_v9 (ix2 r k)) = ix1 r := by
    funext a
    match a with
    | ⟨0, _⟩ => rfl
  rw [e, rowSum_ref, rowExp_ref]
  rfl

/-- The pair term of columns 1 and 2, as the reference computes it, at row r. -/
theorem pen12_ref (X : S2097152x20.Idx → EReal) (r : Fin 2097152) :
    val_main_v18 (F := Ideal) X (ix1 r) = pen (row20 X r) 1 2 := by
  rw [val_main_v18_apply, val_main_v17_apply, val_main_v15_apply, val_main_v12_apply, val_main_v11_apply, val_main_v14_apply, val_main_v13_apply,
    val_main_v16_apply, val_main_cst_2_apply, val_main_call0_v0_apply, val_main_cst_3_apply, val_main_call0_v1_apply, val_main_cst_4_apply]
  have e1 : idx_main_v11 (idx_main_v12 (ix1 r)) = ix2 r 1 := by
    funext a
    match a with
    | ⟨0, _⟩ => exact Fin.ext (Nat.div_one _)
    | ⟨1, _⟩ => rfl
  have e2 : idx_main_v13 (idx_main_v14 (ix1 r)) = ix2 r 2 := by
    funext a
    match a with
    | ⟨0, _⟩ => exact Fin.ext (Nat.div_one _)
    | ⟨1, _⟩ => rfl
  rw [e1, e2, prob_ref, prob_ref]
  unfold pen
  rfl

/-- The pair term of columns 3 and 11, as the reference computes it, at row r. -/
theorem pen311_ref (X : S2097152x20.Idx → EReal) (r : Fin 2097152) :
    val_main_v32 (F := Ideal) X (ix1 r) = pen (row20 X r) 3 11 := by
  rw [val_main_v32_apply, val_main_v31_apply, val_main_v29_apply, val_main_v26_apply, val_main_v25_apply, val_main_v28_apply, val_main_v27_apply,
    val_main_v30_apply, val_main_cst_6_apply, val_main_call1_v0_apply, val_main_cst_7_apply, val_main_call1_v1_apply, val_main_cst_8_apply]
  have e1 : idx_main_v25 (idx_main_v26 (ix1 r)) = ix2 r 3 := by
    funext a
    match a with
    | ⟨0, _⟩ => exact Fin.ext (Nat.div_one _)
    | ⟨1, _⟩ => rfl
  have e2 : idx_main_v27 (idx_main_v28 (ix1 r)) = ix2 r 11 := by
    funext a
    match a with
    | ⟨0, _⟩ => exact Fin.ext (Nat.div_one _)
    | ⟨1, _⟩ => rfl
  rw [e1, e2, prob_ref, prob_ref]
  unfold pen
  rfl

/-- The pair term of columns 17 and 18, as the reference computes it, at row r. -/
theorem pen1718_ref (X : S2097152x20.Idx → EReal) (r : Fin 2097152) :
    val_main_v46 (F := Ideal) X (ix1 r) = pen (row20 X r) 17 18 := by
  rw [val_main_v46_apply, val_main_v45_apply, val_main_v43_apply, val_main_v40_apply, val_main_v39_apply, val_main_v42_apply, val_main_v41_apply,
    val_main_v44_apply, val_main_cst_11_apply, val_main_call2_v0_apply, val_main_cst_12_apply, val_main_call2_v1_apply, val_main_cst_13_apply]
  have e1 : idx_main_v39 (idx_main_v40 (ix1 r)) = ix2 r 17 := by
    funext a
    match a with
    | ⟨0, _⟩ => exact Fin.ext (Nat.div_one _)
    | ⟨1, _⟩ => rfl
  have e2 : idx_main_v41 (idx_main_v42 (ix1 r)) = ix2 r 18 := by
    funext a
    match a with
    | ⟨0, _⟩ => exact Fin.ext (Nat.div_one _)
    | ⟨1, _⟩ => rfl
  rw [e1, e2, prob_ref, prob_ref]
  unfold pen
  rfl

/-- The term -5 where column 3 of the second argument is below 85. -/
theorem t2_ref (S : S2097152x8.Idx → EReal) (r : Fin 2097152) :
    val_main_v61 (F := Ideal) S (ix1 r) = t2 (row8 S r) := by
  rw [val_main_v61_apply, val_main_v60_apply, val_main_v54_apply, val_main_v53_apply, val_main_v59_apply, val_main_cst_16_apply, val_main_call3_v1_apply, val_main_cst_17_apply,
    val_main_call3_v2_apply, val_main_call3_v0_apply, val_main_cst_18_apply]
  have e1 : idx_main_v53 (idx_main_v54 (ix1 r)) = ix2 r 3 := by
    funext a
    match a with
    | ⟨0, _⟩ => exact Fin.ext (Nat.div_one _)
    | ⟨1, _⟩ => rfl
  rw [e1]
  unfold t2
  rfl

/-- The term 0.5 where column 3 of the second argument is below 85. -/
theorem tA_ref (S : S2097152x8.Idx → EReal) (r : Fin 2097152) :
    val_main_v64 (F := Ideal) S (ix1 r) = tA (row8 S r) := by
  rw [val_main_v64_apply, val_main_v60_apply, val_main_v54_apply, val_main_v53_apply, val_main_v59_apply, val_main_cst_16_apply, val_main_call4_v1_apply, val_main_cst_20_apply,
    val_main_call4_v2_apply, val_main_call4_v0_apply, val_main_cst_21_apply]
  have e1 : idx_main_v53 (idx_main_v54 (ix1 r)) = ix2 r 3 := by
    funext a
    match a with
    | ⟨0, _⟩ => exact Fin.ext (Nat.div_one _)
    | ⟨1, _⟩ => rfl
  rw [e1]
  unfold tA
  rfl

/-- The term -3 where column 3 of the second argument is above 160. -/
theorem tB_ref (S : S2097152x8.Idx → EReal) (r : Fin 2097152) :
    val_main_v69 (F := Ideal) S (ix1 r) = tB (row8 S r) := by
  rw [val_main_v69_apply, val_main_v68_apply, val_main_v54_apply, val_main_v53_apply, val_main_v67_apply, val_main_cst_23_apply, val_main_call5_v1_apply, val_main_cst_24_apply,
    val_main_call5_v2_apply, val_main_call5_v0_apply, val_main_cst_25_apply]
  have e1 : idx_main_v53 (idx_main_v54 (ix1 r)) = ix2 r 3 := by
    funext a
    match a with
    | ⟨0, _⟩ => exact Fin.ext (Nat.div_one _)
    | ⟨1, _⟩ => rfl
  rw [e1]
  unfold tB
  rfl

/-- The term 0.3 where column 1 of the second argument is above 130. -/
theorem t4_ref (S : S2097152x8.Idx → EReal) (r : Fin 2097152) :
    val_main_v74 (F := Ideal) S (ix1 r) = t4 (row8 S r) := by
  rw [val_main_v74_apply, val_main_v73_apply, val_main_v56_apply, val_main_v55_apply, val_main_v72_apply, val_main_cst_27_apply, val_main_call6_v1_apply, val_main_cst_28_apply,
    val_main_call6_v2_apply, val_main_call6_v0_apply, val_main_cst_29_apply]
  have e1 : idx_main_v55 (idx_main_v56 (ix1 r)) = ix2 r 1 := by
    funext a
    match a with
    | ⟨0, _⟩ => exact Fin.ext (Nat.div_one _)
    | ⟨1, _⟩ => rfl
  rw [e1]
  unfold t4
  rfl

/-- The term 0.5 where column 5 of the second argument is below 90. -/
theorem t5_ref (S : S2097152x8.Idx → EReal) (r : Fin 2097152) :
    val_main_v79 (F := Ideal) S (ix1 r) = t5 (row8 S r) := by
  rw [val_main_v79_apply, val_main_v78_apply, val_main_v58_apply, val_main_v57_apply, val_main_v77_apply, val_main_cst_31_apply, val_main_call7_v1_apply, val_main_cst_32_apply,
    val_main_call7_v2_apply, val_main_call7_v0_apply, val_main_cst_33_apply]
  have e1 : idx_main_v57 (idx_main_v58 (ix1 r)) = ix2 r 5 := by
    funext a
    match a with
    | ⟨0, _⟩ => exact Fin.ext (Nat.div_one _)
    | ⟨1, _⟩ => rfl
  rw [e1]
  unfold t5
  rfl

/-! ## The eleven column scatters, each read at (r, c) -/

theorem s1 (X : S2097152x20.Idx → EReal) (r : Fin 2097152) (c : Fin 20) :
    val_main_v21 (F := Ideal) X (ix2 r c) = bump c 1 (X (ix2 r c)) (-pen (row20 X r) 1 2) := by
  unfold val_main_v21
  rw [show scatter_S2097152x20_S1_S2097152_0_1_1_0 = columnDims scatter_S2097152x20_S1_S2097152_0_1_1_0_wf from rfl,
    scatter_column_apply _ _ _ _ _ (1 : Fin 20) (by rw [val_main_v20_apply, val_main_c_apply]; rfl) r c, val_main_v19_apply, pen12_ref]
  rfl

theorem s2 (X : S2097152x20.Idx → EReal) (r : Fin 2097152) (c : Fin 20) :
    val_main_v24 (F := Ideal) X (ix2 r c) = bump c 2 (val_main_v21 (F := Ideal) X (ix2 r c)) (-pen (row20 X r) 1 2) := by
  unfold val_main_v24
  rw [show scatter_S2097152x20_S1_S2097152_0_1_1_0 = columnDims scatter_S2097152x20_S1_S2097152_0_1_1_0_wf from rfl,
    scatter_column_apply _ _ _ _ _ (2 : Fin 20) (by rw [val_main_v23_apply, val_main_c_5_apply]; rfl) r c, val_main_v22_apply, pen12_ref]
  rfl

theorem s3 (X : S2097152x20.Idx → EReal) (r : Fin 2097152) (c : Fin 20) :
    val_main_v35 (F := Ideal) X (ix2 r c) = bump c 3 (val_main_v24 (F := Ideal) X (ix2 r c)) (-pen (row20 X r) 3 11) := by
  unfold val_main_v35
  rw [show scatter_S2097152x20_S1_S2097152_0_1_1_0 = columnDims scatter_S2097152x20_S1_S2097152_0_1_1_0_wf from rfl,
    scatter_column_apply _ _ _ _ _ (3 : Fin 20) (by rw [val_main_v34_apply, val_main_c_9_apply]; rfl) r c, val_main_v33_apply, pen311_ref]
  rfl

theorem s4 (X : S2097152x20.Idx → EReal) (r : Fin 2097152) (c : Fin 20) :
    val_main_v38 (F := Ideal) X (ix2 r c) = bump c 11 (val_main_v35 (F := Ideal) X (ix2 r c)) (-pen (row20 X r) 3 11) := by
  unfold val_main_v38
  rw [show scatter_S2097152x20_S1_S2097152_0_1_1_0 = columnDims scatter_S2097152x20_S1_S2097152_0_1_1_0_wf from rfl,
    scatter_column_apply _ _ _ _ _ (11 : Fin 20) (by rw [val_main_v37_apply, val_main_c_10_apply]; rfl) r c, val_main_v36_apply, pen311_ref]
  rfl

theorem s5 (X : S2097152x20.Idx → EReal) (r : Fin 2097152) (c : Fin 20) :
    val_main_v49 (F := Ideal) X (ix2 r c) = bump c 17 (val_main_v38 (F := Ideal) X (ix2 r c)) (-pen (row20 X r) 17 18) := by
  unfold val_main_v49
  rw [show scatter_S2097152x20_S1_S2097152_0_1_1_0 = columnDims scatter_S2097152x20_S1_S2097152_0_1_1_0_wf from rfl,
    scatter_column_apply _ _ _ _ _ (17 : Fin 20) (by rw [val_main_v48_apply, val_main_c_14_apply]; rfl) r c, val_main_v47_apply, pen1718_ref]
  rfl

theorem s6 (X : S2097152x20.Idx → EReal) (r : Fin 2097152) (c : Fin 20) :
    val_main_v52 (F := Ideal) X (ix2 r c) = bump c 18 (val_main_v49 (F := Ideal) X (ix2 r c)) (-pen (row20 X r) 17 18) := by
  unfold val_main_v52
  rw [show scatter_S2097152x20_S1_S2097152_0_1_1_0 = columnDims scatter_S2097152x20_S1_S2097152_0_1_1_0_wf from rfl,
    scatter_column_apply _ _ _ _ _ (18 : Fin 20) (by rw [val_main_v51_apply, val_main_c_15_apply]; rfl) r c, val_main_v50_apply, pen1718_ref]
  rfl

theorem s7 (X : S2097152x20.Idx → EReal) (S : S2097152x8.Idx → EReal) (r : Fin 2097152) (c : Fin 20) :
    val_main_v63 (F := Ideal) X S (ix2 r c) = bump c 2 (val_main_v52 (F := Ideal) X (ix2 r c)) (t2 (row8 S r)) := by
  unfold val_main_v63
  rw [show scatter_S2097152x20_S1_S2097152_0_1_1_0 = columnDims scatter_S2097152x20_S1_S2097152_0_1_1_0_wf from rfl,
    scatter_column_apply _ _ _ _ _ (2 : Fin 20) (by rw [val_main_v62_apply, val_main_c_19_apply]; rfl) r c, t2_ref]
  rfl

theorem s8 (X : S2097152x20.Idx → EReal) (S : S2097152x8.Idx → EReal) (r : Fin 2097152) (c : Fin 20) :
    val_main_v66 (F := Ideal) X S (ix2 r c) = bump c 1 (val_main_v63 (F := Ideal) X S (ix2 r c)) (tA (row8 S r)) := by
  unfold val_main_v66
  rw [show scatter_S2097152x20_S1_S2097152_0_1_1_0 = columnDims scatter_S2097152x20_S1_S2097152_0_1_1_0_wf from rfl,
    scatter_column_apply _ _ _ _ _ (1 : Fin 20) (by rw [val_main_v65_apply, val_main_c_22_apply]; rfl) r c, tA_ref]
  rfl

theorem s9 (X : S2097152x20.Idx → EReal) (S : S2097152x8.Idx → EReal) (r : Fin 2097152) (c : Fin 20) :
    val_main_v71 (F := Ideal) X S (ix2 r c) = bump c 1 (val_main_v66 (F := Ideal) X S (ix2 r c)) (tB (row8 S r)) := by
  unfold val_main_v71
  rw [show scatter_S2097152x20_S1_S2097152_0_1_1_0 = columnDims scatter_S2097152x20_S1_S2097152_0_1_1_0_wf from rfl,
    scatter_column_apply _ _ _ _ _ (1 : Fin 20) (by rw [val_main_v70_apply, val_main_c_26_apply]; rfl) r c, tB_ref]
  rfl

theorem s10 (X : S2097152x20.Idx → EReal) (S : S2097152x8.Idx → EReal) (r : Fin 2097152) (c : Fin 20) :
    val_main_v76 (F := Ideal) X S (ix2 r c) = bump c 4 (val_main_v71 (F := Ideal) X S (ix2 r c)) (t4 (row8 S r)) := by
  unfold val_main_v76
  rw [show scatter_S2097152x20_S1_S2097152_0_1_1_0 = columnDims scatter_S2097152x20_S1_S2097152_0_1_1_0_wf from rfl,
    scatter_column_apply _ _ _ _ _ (4 : Fin 20) (by rw [val_main_v75_apply, val_main_c_30_apply]; rfl) r c, t4_ref]
  rfl

theorem s11 (X : S2097152x20.Idx → EReal) (S : S2097152x8.Idx → EReal) (r : Fin 2097152) (c : Fin 20) :
    val_main_v81 (F := Ideal) X S (ix2 r c) = bump c 5 (val_main_v76 (F := Ideal) X S (ix2 r c)) (t5 (row8 S r)) := by
  unfold val_main_v81
  rw [show scatter_S2097152x20_S1_S2097152_0_1_1_0 = columnDims scatter_S2097152x20_S1_S2097152_0_1_1_0_wf from rfl,
    scatter_column_apply _ _ _ _ _ (5 : Fin 20) (by rw [val_main_v80_apply, val_main_c_34_apply]; rfl) r c, t5_ref]
  rfl

/-- The reference's result is that function. -/
theorem ref_eq (X : S2097152x20.Idx → EReal) (S : S2097152x8.Idx → EReal) : val_main_v81 (F := Ideal) X S = G X S := by
  funext i
  obtain ⟨r, c, rfl⟩ : ∃ (r : Fin 2097152) (c : Fin 20), i = ix2 r c := ⟨i 0, i 1, eq_ix2 i⟩
  rw [s11, s10, s9, s8, s7, s6, s5, s4, s3, s2, s1]
  rfl

end Cert.ReferenceIdeal.RefValue

end
-- ==== Proof.lean ====
/-
  The certificate's claim.

  Both programs compute, on the extended reals, ONE function of the two arguments: row r of the result is the
  row function (Proof/RowSpec.lean) of row r of each argument — the softmax of the row, three terms of pairs of
  its columns, five threshold terms of the second argument's row, added into the row column by column.

  * The kernel stages 8192 rows per grid point and computes the row function of each staged row, gathering the
    changes of a column with selects on the column number (Proof/KernelBody.lean); its 256 blocks tile the rows
    (Proof/KernelRows.lean).
  * The reference computes the same terms on whole arrays and adds them by eleven column scatters, one column at a
    time (Proof/RefValue.lean, over a scatter read at an index: Proof/LibScatterColumn.lean).
  * The two arrangements of the additions agree by associativity of + on the extended reals and 0 - a = -a,
    a - 0 = a, a + 0 = a: no finiteness is used, so the precondition is never opened.

  The three frames are the generated ones (the reference's is its run with the result dropped); the kernel's
  idealization rewrote nothing, so that conjunct is trivial.
-/
import proofs.«142553_j47399259079459_2_alg».proof.Defs
import proofs.«142553_j47399259079459_2_alg».proof.Proof.Gen.Kernel
import proofs.«142553_j47399259079459_2_alg».proof.Proof.Gen.Kernel.Skeleton
import proofs.«142553_j47399259079459_2_alg».proof.Proof.Gen.Kernel.Launch
import proofs.«142553_j47399259079459_2_alg».proof.Proof.Gen.Kernel.Points
import proofs.«142553_j47399259079459_2_alg».proof.Proof.Gen.Kernel.Frame
import proofs.«142553_j47399259079459_2_alg».proof.Proof.Gen.KernelIdeal
import proofs.«142553_j47399259079459_2_alg».proof.Proof.Gen.KernelIdeal.Skeleton
import proofs.«142553_j47399259079459_2_alg».proof.Proof.Gen.KernelIdeal.Launch
import proofs.«142553_j47399259079459_2_alg».proof.Proof.Gen.KernelIdeal.Points
import proofs.«142553_j47399259079459_2_alg».proof.Proof.Gen.KernelIdeal.Frame
import proofs.«142553_j47399259079459_2_alg».proof.Proof.Gen.ReferenceIdeal
import proofs.«142553_j47399259079459_2_alg».proof.Proof.Gen.Pre_finite_inputs
import proofs.«142553_j47399259079459_2_alg».proof.Proof.Gen.KernelIdeal.Value
import proofs.«142553_j47399259079459_2_alg».proof.Proof.Gen.ReferenceIdeal.Run
import proofs.«142553_j47399259079459_2_alg».proof.Proof.Gen.ReferenceIdeal.Read
import proofs.«142553_j47399259079459_2_alg».proof.Proof.RowSpec
import proofs.«142553_j47399259079459_2_alg».proof.Proof.KernelRows
import proofs.«142553_j47399259079459_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the whole-array function of the (agreeing) arguments. -/
theorem algebraic : Cert.algebraic_KernelIdeal_ReferenceIdeal := by
  intro m ρ m' ρ' _ hagree
  refine ⟨_, Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v81_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
